-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S256x128 : Shape := ⟨2, ![256, 128]⟩
abbrev S5000x128 : Shape := ⟨2, ![5000, 128]⟩
abbrev S5000x1 : Shape := ⟨2, ![5000, 1]⟩
abbrev S5000x256 : Shape := ⟨2, ![5000, 256]⟩

abbrev nBuf : Space → Nat
  | .hbm => 60
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000x1, .f32⟩
  | .hbm, ⟨14, _⟩ => ⟨S_, .f32⟩
  | .hbm, ⟨15, _⟩ => ⟨S50000x1, .f32⟩
  | .hbm, ⟨16, _⟩ => ⟨S800000x1, .i32⟩
  | .hbm, ⟨17, _⟩ => ⟨S50000x1, .f32⟩
  | .hbm, ⟨18, _⟩ => ⟨S_, .f32⟩
  | .hbm, ⟨19, _⟩ => ⟨S50000x1, .f32⟩
  | .hbm, ⟨20, _⟩ => ⟨S50000x1, .f32⟩
  | .hbm, ⟨21, _⟩ => ⟨S_, .f32⟩
  | .hbm, ⟨22, _⟩ => ⟨S50000x1, .f32⟩
  | .hbm, ⟨23, _⟩ => ⟨S50000x1, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x128, .f32⟩
  | .hbm, ⟨33, _⟩ => ⟨S_, .f32⟩
  | .hbm, ⟨34, _⟩ => ⟨S50000x128, .f32⟩
  | .hbm, ⟨35, _⟩ => ⟨S800000x1, .i32⟩
  | .hbm, ⟨36, _⟩ => ⟨S50000x128, .f32⟩
  | .hbm, ⟨37, _⟩ => ⟨S1x128, .f32⟩
  | .hbm, ⟨38, _⟩ => ⟨S128x128, .f32⟩
  | .hbm, ⟨39, _⟩ => ⟨S128x128, .f32⟩
  | .hbm, ⟨40, _⟩ => ⟨S256x128, .f32⟩
  | .hbm, ⟨41, _⟩ => ⟨S50000x128, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x128, .f32⟩
  | .hbm, ⟨51, _⟩ => ⟨S_, .f32⟩
  | .hbm, ⟨52, _⟩ => ⟨S50000x128, .f32⟩
  | .hbm, ⟨53, _⟩ => ⟨S800000x1, .i32⟩
  | .hbm, ⟨54, _⟩ => ⟨S50000x128, .f32⟩
  | .hbm, ⟨55, _⟩ => ⟨S1x128, .f32⟩
  | .hbm, ⟨56, _⟩ => ⟨S128x128, .f32⟩
  | .hbm, ⟨57, _⟩ => ⟨S128x128, .f32⟩
  | .hbm, ⟨58, _⟩ => ⟨S256x128, .f32⟩
  | .hbm, ⟨59, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S256x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x1, .f32⟩
  | .local _ .vmem, ⟨13, _⟩ => ⟨S5000x1, .f32⟩
  | .local _ .vmem, ⟨14, _⟩ => ⟨S5000x128, .f32⟩
  | .local _ .vmem, ⟨15, _⟩ => ⟨S5000x128, .f32⟩
  | .local _ .vmem, ⟨16, _⟩ => ⟨S256x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000x1 : S_.BroadcastsInDim S800000x1 (![] : Fin 0 → Fin S800000x1.rank)
  bcast_S_S50000x1 : S_.BroadcastsInDim S50000x1 (![] : Fin 0 → Fin S50000x1.rank)
  bcast_S800000_S800000x1_0 : S800000.BroadcastsInDim S800000x1 (![0] : Fin 1 → Fin S800000x1.rank)
  bcast_S_S800000 : S_.BroadcastsInDim S800000 (![] : Fin 0 → Fin S800000.rank)
  bcast_S_S50000x128 : S_.BroadcastsInDim S50000x128 (![] : Fin 0 → Fin S50000x128.rank)
  shapeCasts_S128_S1x128 : S128.ShapeCasts S1x128
  transposes_S128x128_S128x128_1_0 : S128x128.Transposes [1, 0] S128x128
  concatenates_S128x128_S128x128_S256x128_d0 : Shape.Concatenates [S128x128, S128x128] S256x128 0
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  concatenates_S5000x128_S5000x128_S5000x256_d1 : Shape.Concatenates [S5000x128, S5000x128] S5000x256 1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000x1_S800000x1_S800000x1_1_0_0_1_wf : ScatterDims.WF S50000x1 S800000x1 S800000x1 [1] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_v21) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v36) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v40) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩

abbrev nBuf : Space → Nat
  | .hbm => 79
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000x1, .f32⟩
  | .hbm, ⟨27, _⟩ => ⟨S_, .f32⟩
  | .hbm, ⟨28, _⟩ => ⟨S50000x1, .f32⟩
  | .hbm, ⟨29, _⟩ => ⟨S800000x1, .i32⟩
  | .hbm, ⟨30, _⟩ => ⟨S50000x1, .f32⟩
  | .hbm, ⟨31, _⟩ => ⟨S_, .f32⟩
  | .hbm, ⟨32, _⟩ => ⟨S50000x1, .f32⟩
  | .hbm, ⟨33, _⟩ => ⟨S50000x1, .f32⟩
  | .hbm, ⟨34, _⟩ => ⟨S50000x128, .f32⟩
  | .hbm, ⟨35, _⟩ => ⟨S50000x128, .f32⟩
  | .hbm, ⟨36, _⟩ => ⟨S128x128, .f32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S50000x128, .f32⟩
  | .hbm, ⟨41, _⟩ => ⟨S128x128, .f32⟩
  | .hbm, ⟨42, _⟩ => ⟨S50000x128, .f32⟩
  | .hbm, ⟨43, _⟩ => ⟨S50000x128, .f32⟩
  | .hbm, ⟨44, _⟩ => ⟨S_, .f32⟩
  | .hbm, ⟨45, _⟩ => ⟨S50000x128, .f32⟩
  | .hbm, ⟨46, _⟩ => ⟨S50000x128, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x128, .f32⟩
  | .hbm, ⟨56, _⟩ => ⟨S_, .f32⟩
  | .hbm, ⟨57, _⟩ => ⟨S50000x128, .f32⟩
  | .hbm, ⟨58, _⟩ => ⟨S800000x1, .i32⟩
  | .hbm, ⟨59, _⟩ => ⟨S50000x128, .f32⟩
  | .hbm, ⟨60, _⟩ => ⟨S_, .f32⟩
  | .hbm, ⟨61, _⟩ => ⟨S800000x1, .f32⟩
  | .hbm, ⟨62, _⟩ => ⟨S_, .f32⟩
  | .hbm, ⟨63, _⟩ => ⟨S50000x1, .f32⟩
  | .hbm, ⟨64, _⟩ => ⟨S800000x1, .i32⟩
  | .hbm, ⟨65, _⟩ => ⟨S50000x1, .f32⟩
  | .hbm, ⟨66, _⟩ => ⟨S_, .f32⟩
  | .hbm, ⟨67, _⟩ => ⟨S50000x1, .f32⟩
  | .hbm, ⟨68, _⟩ => ⟨S50000x1, .f32⟩
  | .hbm, ⟨69, _⟩ => ⟨S50000x128, .f32⟩
  | .hbm, ⟨70, _⟩ => ⟨S50000x128, .f32⟩
  | .hbm, ⟨71, _⟩ => ⟨S128x128, .f32⟩
  | .hbm, ⟨72, _⟩ => ⟨S50000x128, .f32⟩
  | .hbm, ⟨73, _⟩ => ⟨S1x128, .f32⟩
  | .hbm, ⟨74, _⟩ => ⟨S50000x128, .f32⟩
  | .hbm, ⟨75, _⟩ => ⟨S50000x128, .f32⟩
  | .hbm, ⟨76, _⟩ => ⟨S128x128, .f32⟩
  | .hbm, ⟨77, _⟩ => ⟨S50000x128, .f32⟩
  | .hbm, ⟨78, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_call0_cst : Ref sig .tc := ⟨.hbm, 44, rfl⟩
abbrev main_call0_v0 : Ref sig .tc := ⟨.hbm, 45, rfl⟩
abbrev main_v30 : Ref sig .tc := ⟨.hbm, 46, rfl⟩
abbrev main_c_4 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_9 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  THE KERNEL'S RUN WITH ITS RESULT NAMED.

  @main is four segments: a stretch of host operations, the first region, a second stretch, the second region. The
  contents of every buffer at each boundary are a fold from the launch memory: a stretch applies its operations, a
  region leaves its arrays at what its write-backs leave and every other buffer as entered. Every weakly fair
  execution terminates without a fault in a state whose unscoped buffers hold the last boundary's contents; read at the
  result buffer that is the second region's output array after its ten write-backs, and read at an argument it is the
  launch contents (no operation and no region writes an argument).
-/
import proofs.«110145_j18468359373225_2_alg».proof.Proof.Gen.KernelIdeal.Frame

set_option maxRecDepth 16384

noncomputable section

namespace Cert.KernelIdeal.RunAll

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer is the second region's output array. -/
theorem result_eq (c : Dev nD) :
    W4 m ρ c (Proc.devRef .tc main_v41) = (dat1 (V3 m ρ) c).arrAt 5 cfg1.N := W4_arr m ρ c 5

set_option backward.isDefEq.respectTransparency.types false in
/-- Every weakly fair execution of @main terminates, nothing faulting, with the result buffer at the last boundary's
    contents and the argument arrays as launched. -/
theorem run : θ_run defs (onTc (τ := τ) (main (F := F))) ⟨m, fun _ => 0, ρ⟩ (fun r => ∀ c : Dev nD,
      r.2.mem ((c.tc : Thread nD τ).loc main_v41) = W4 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v41 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.RunAll

end
-- ==== Proof.SageAlgebra.lean ====
/-
  One mean-aggregating graph layer on the extended reals, in the two arrangements the two programs compute it in.

  Per node `r` and output feature `q`, from the summed neighbour features `agg`, the node's own features `x`, the
  node's in-degree clamped at one `deg`, two weight matrices and a bias:

  * the reference divides the aggregate by the degree first and takes two products of 128 terms:
      `(∑ₖ (agg[r,k] / deg[r]) · Wl[q,k] + b[q]) + ∑ₖ x[r,k] · Wr[q,k]`;
  * the fused form multiplies the aggregate by the reciprocal `inv[r] = 1 / deg[r]`, lays the two operand rows side by
    side, the two transposed weight matrices one above the other, and takes ONE product of 256 terms, then adds the bias:
      `∑_{k<256} [agg·inv | x][r,k] · [Wlᵀ ; Wrᵀ][k,q] + b[q]`.

  They are equal whenever the degree is a positive real: dividing by a positive real `y` and multiplying by `1 / y`
  are the same map on every extended real, infinite ones included; a sum over 256 indices is the sum over its two
  halves; and addition of extended reals is commutative and associative. Nothing here needs the operands finite.
-/
import Idealize.ShloMosaic.PureOps.Ideal.Laws
import Idealize.ShloMosaic.Lib.ValueIdx

noncomputable section

open scoped BigOperators

namespace Cert.Sage

open Idealize.ShloMosaic Idealize.ShloMosaic.ValueIdx

/-- Node features `[50000, 128]`, a column over the nodes `[50000, 1]`, a weight matrix `[128, 128]`, the two
    transposed weight matrices stacked `[256, 128]`, a bias `[128]` and the bias as one row `[1, 128]`. -/
abbrev Nodes : Shape := ⟨2, ![50000, 128]⟩
abbrev Col : Shape := ⟨2, ![50000, 1]⟩
abbrev Wt : Shape := ⟨2, ![128, 128]⟩
abbrev WtCat : Shape := ⟨2, ![256, 128]⟩
abbrev Bias : Shape := ⟨1, ![128]⟩
abbrev BiasRow : Shape := ⟨2, ![1, 128]⟩

/-- The lower and the upper half of the 256 contraction indices. -/
def lo (k : Fin 128) : Fin 256 := ⟨k.val, by have := k.isLt; omega⟩
def hi (k : Fin 128) : Fin 256 := ⟨128 + k.val, by have := k.isLt; omega⟩

/-- A sum over the 256 contraction indices is the sum over the lower half plus the sum over the upper half. -/
theorem sum_halves {M : Type} [AddCommMonoid M] (f : Fin 256 → M) :
    ∑ k, f k = ∑ k : Fin 128, f (lo k) + ∑ k : Fin 128, f (hi k) :=
  Fin.sum_univ_add (a := 128) (b := 128) (fun k : Fin (128 + 128) => f k)

/-- THE REFERENCE'S ARRANGEMENT of one layer, at node `r` and output feature `q`. -/
def layerAt (agg x : Nodes.Idx → EReal) (deg : Col.Idx → EReal) (Wl Wr : Wt.Idx → EReal) (b : Bias.Idx → EReal)
    (r : Fin 50000) (q : Fin 128) : EReal :=
  ((∑ k : Fin 128, Ideal.div (agg (ix2 r k)) (deg (ix2 r (0 : Fin 1))) * Wl (ix2 q k)) + b (ix1 q))
    + ∑ k : Fin 128, x (ix2 r k) * Wr (ix2 q k)

/-- THE FUSED ARRANGEMENT of one layer at node `r` and output feature `q`, over the arrays the fused computation is
    handed: the reciprocal degree, the stacked transposed weights and the bias row. The 256-term product is written as
    its two halves. -/
def fusedAt (agg x : Nodes.Idx → EReal) (inv : Col.Idx → EReal) (wcat : WtCat.Idx → EReal) (brow : BiasRow.Idx → EReal)
    (r : Fin 50000) (q : Fin 128) : EReal :=
  ((∑ k : Fin 128, (agg (ix2 r k) * inv (ix2 r (0 : Fin 1))) * wcat (ix2 (lo k) q))
      + ∑ k : Fin 128, x (ix2 r k) * wcat (ix2 (hi k) q))
    + brow (ix2 (0 : Fin 1) q)

/-- The two arrangements as whole arrays. -/
def layer (agg x : Nodes.Idx → EReal) (deg : Col.Idx → EReal) (Wl Wr : Wt.Idx → EReal) (b : Bias.Idx → EReal) :
    Nodes.Idx → EReal := fun i => layerAt agg x deg Wl Wr b (i 0) (i 1)
def fused (agg x : Nodes.Idx → EReal) (inv : Col.Idx → EReal) (wcat : WtCat.Idx → EReal) (brow : BiasRow.Idx → EReal) :
    Nodes.Idx → EReal := fun i => fusedAt agg x inv wcat brow (i 0) (i 1)

/-- Multiplying by the reciprocal of a positive real is dividing by it, on every extended real. -/
theorem mul_inv_eq_div (a : EReal) {one d : EReal} (hone : one = 1) (hd : ∃ y : ℝ, 0 < y ∧ d = (y : EReal)) :
    a * Ideal.div one d = Ideal.div a d := by
  obtain ⟨y, hy, rfl⟩ := hd
  have hy0 : y ≠ 0 := ne_of_gt hy
  rw [hone, Ideal.div_coe hy0, Ideal.div_coe hy0, one_mul]

/-- THE TWO ARRANGEMENTS AGREE when the reciprocal column is one over a positive real degree and the stacked weights
    and the bias row hold the two matrices transposed and the bias. -/
theorem fusedAt_eq_layerAt (agg x : Nodes.Idx → EReal) (inv deg : Col.Idx → EReal) (wcat : WtCat.Idx → EReal)
    (brow : BiasRow.Idx → EReal) (Wl Wr : Wt.Idx → EReal) (b : Bias.Idx → EReal) {one : EReal} (hone : one = 1)
    (hinv : ∀ r : Fin 50000, inv (ix2 r (0 : Fin 1)) = Ideal.div one (deg (ix2 r (0 : Fin 1))))
    (hdeg : ∀ r : Fin 50000, ∃ y : ℝ, 0 < y ∧ deg (ix2 r (0 : Fin 1)) = (y : EReal))
    (hlo : ∀ (k : Fin 128) (q : Fin 128), wcat (ix2 (lo k) q) = Wl (ix2 q k))
    (hhi : ∀ (k : Fin 128) (q : Fin 128), wcat (ix2 (hi k) q) = Wr (ix2 q k))
    (hb : ∀ q : Fin 128, brow (ix2 (0 : Fin 1) q) = b (ix1 q)) (r : Fin 50000) (q : Fin 128) :
    fusedAt agg x inv wcat brow r q = layerAt agg x deg Wl Wr b r q := by
  unfold fusedAt layerAt
  rw [hb, add_right_comm]
  refine congrArg₂ (· + ·) (congrArg₂ (· + ·) (Finset.sum_congr rfl fun k _ => ?_) rfl) (Finset.sum_congr rfl fun k _ => ?_)
  · rw [hlo, hinv, mul_inv_eq_div _ hone (hdeg r)]
  · rw [hhi]

theorem fused_eq_layer (agg x : Nodes.Idx → EReal) (inv deg : Col.Idx → EReal) (wcat : WtCat.Idx → EReal)
    (brow : BiasRow.Idx → EReal) (Wl Wr : Wt.Idx → EReal) (b : Bias.Idx → EReal) {one : EReal} (hone : one = 1)
    (hinv : ∀ r : Fin 50000, inv (ix2 r (0 : Fin 1)) = Ideal.div one (deg (ix2 r (0 : Fin 1))))
    (hdeg : ∀ r : Fin 50000, ∃ y : ℝ, 0 < y ∧ deg (ix2 r (0 : Fin 1)) = (y : EReal))
    (hlo : ∀ (k : Fin 128) (q : Fin 128), wcat (ix2 (lo k) q) = Wl (ix2 q k))
    (hhi : ∀ (k : Fin 128) (q : Fin 128), wcat (ix2 (hi k) q) = Wr (ix2 q k))
    (hb : ∀ q : Fin 128, brow (ix2 (0 : Fin 1) q) = b (ix1 q)) :
    fused agg x inv wcat brow = layer agg x deg Wl Wr b :=
  funext fun i => fusedAt_eq_layerAt agg x inv deg wcat brow Wl Wr b hone hinv hdeg hlo hhi hb (i 0) (i 1)

end Cert.Sage

end
-- ==== Proof.LibMatmulNN.lean ====
/-
  A matrix product of a row-major `M × K` block against a `K × N` block (the right operand NOT transposed:
  the left operand's axis 1 is contracted with the right operand's axis 0), accumulated into the zero block,
  read at the extended reals: entry `(p, q)` of the result is the sum over `k` of `x[p, k] · w[k, q]`.
  The matrix unit's contraction index ranges over a one-axis shape of extent `K`; it is re-indexed to `Fin K`,
  and the operand indices the dot's dimension record computes are named coordinate by coordinate.
  General in the three extents and in the operands' float formats.
-/
import Idealize.ShloMosaic.PureOps.Ideal.Laws
import Idealize.ShloMosaic.Lib.ValueIdx

noncomputable section

open scoped BigOperators

namespace LibMatmulNN

open Idealize.ShloMosaic Idealize.ShloMosaic.ValueIdx

variable (M K N : Nat)

/-- The left operand's index at output index `(p, q)` and contraction index `k` is `(p, k)`. -/
theorem lhsIdx_eq (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl _ _).trans hk

/-- The right operand's index at output index `(p, q)` and contraction index `k` is `(k, q)`. -/
theorem rhsIdx_eq (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl _ _).trans hk
  | ⟨1, _⟩ => rfl

/-- Entry `(p, q)` of `x · w` accumulated into zero is `∑ k, x[p, k] · w[k, q]` on the extended reals. -/
theorem matmul_zero_apply {φ₁ φ₂ : FTy} (prec : Option ContractPrecision)
    (x : FVec Ideal ⟨2, ![M, K]⟩ φ₁) (w : FVec Ideal ⟨2, ![K, N]⟩ φ₂) (p : Fin M) (q : Fin N) :
    FloatOps.matmul (DotDims.plain M K N) prec x w (constant (F := Ideal) ⟨2, ![M, N]⟩ .f32 0x00000000#32) (ix2 p q)
      = ∑ k : Fin K, x (ix2 p k) * w (ix2 k q) := by
  rw [Ideal.matmul_constant_zero_apply, ← Equiv.sum_comp (contrEquiv1 (DotDims.plain M K N) K rfl rfl).symm]
  refine Finset.sum_congr rfl fun k _ => ?_
  rw [lhsIdx_eq, rhsIdx_eq]

end LibMatmulNN

end
-- ==== Proof.LibColumnLayout.lean ====
/-
  Two layout operations read at an index, for shapes with unit axes, in the style of the library's
  Lib/ValueLayout.lean (which has the row form [1, b] → [a, b] and the single leading unit axis):
  a COLUMN [a, 1] broadcast along its unit axis to [a, b], and a matrix [a, b] viewed with TWO leading
  unit axes [1, 1, a, b].
-/
import Idealize.ShloMosaic.Lib.Pipeline.Value
import Idealize.ShloMosaic.Lib.ValueIdx

noncomputable section

namespace Idealize.ShloMosaic.ValueIdx

variable {α : Type}

/-- An `[a, 1]` column broadcast to `[a, b]` reads, at `(p, c)`, the column's entry of row `p`: the broadcast
    repeats the one entry of each row along the new lanes. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[1, 1, a, b]` reads, at `(u, u', i, j)`, the operand at `(i, j)`: both arrays list the
    same entries in the same row-major order, the two unit coordinates contributing nothing to the position. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp only [hu, hu', Nat.zero_mul, Nat.zero_add, Nat.mul_one, Nat.add_zero])

end Idealize.ShloMosaic.ValueIdx

end
-- ==== Proof.Payload.lean ====
/-
  What the two kernel bodies store, read at an element, on the extended reals.

  Both bodies compute, on a block of 5000 nodes, the fused arrangement of one layer: the block of aggregated
  features times the block of reciprocal degrees (one per node, repeated along the features), laid beside the block of
  the nodes' own features; that [5000, 256] array times the [256, 128] stacked weights, accumulated into zero; plus the
  bias row repeated down the nodes. Changes of float format are the identity on the extended reals and the casts
  between equal shapes are the identity, so row `p`, column `q` of the result is

    `∑_{k<128} (agg[p,k] · inv[p,0]) · w[k,q]  +  ∑_{k<128} x[p,k] · w[128+k,q]  +  bias[0,q]`,

  the 256-term product split at the seam of the concatenation. The first body then takes the maximum with zero.
-/
import proofs.«110145_j18468359373225_2_alg».proof.Proof.Gen.KernelIdeal.Skeleton
import proofs.«110145_j18468359373225_2_alg».proof.Proof.SageAlgebra
import proofs.«110145_j18468359373225_2_alg».proof.Proof.LibMatmulNN
import proofs.«110145_j18468359373225_2_alg».proof.Proof.LibColumnLayout
import Idealize.ShloMosaic.Lib.ValueLayout
import Idealize.ShloMosaic.Lib.Pipeline.Value

noncomputable section

open scoped BigOperators

namespace Cert.KernelIdeal.Payload

open Cert.KernelIdeal Cert.KernelIdeal.Gen Idealize.ShloMosaic Idealize.ShloMosaic.ValueIdx Cert.Sage

/-- Two [5000, 128] blocks laid side by side read, in the lower half of the 256 columns, the first block. -/
theorem beside_lo (a x : FVec Ideal S5000x128 .bf16) (p : Fin 5000) (k : Fin 128) :
    concatenate S5000x256 1 [⟨S5000x128, a⟩, ⟨S5000x128, x⟩] concatenates_S5000x128_S5000x128_S5000x256_d1 (ix2 p (lo k))
      = a (ix2 p k) :=
  concatenate_pair_apply_left (1 : Fin 2) a x concatenates_S5000x128_S5000x128_S5000x256_d1 (ix2 p (lo k)) rfl (ix2 p k)
    (fun b => match b with | ⟨0, _⟩ => rfl | ⟨1, _⟩ => rfl)

/-- In the upper half of the 256 columns they read the second block, 128 columns to the left. -/
theorem beside_hi (a x : FVec Ideal S5000x128 .bf16) (p : Fin 5000) (k : Fin 128) :
    concatenate S5000x256 1 [⟨S5000x128, a⟩, ⟨S5000x128, x⟩] concatenates_S5000x128_S5000x128_S5000x256_d1 (ix2 p (hi k))
      = x (ix2 p k) :=
  concatenate_pair_apply_right (1 : Fin 2) a x concatenates_S5000x128_S5000x128_S5000x256_d1 (ix2 p (hi k)) rfl rfl (ix2 p k)
    (fun b hb => match b with | ⟨0, _⟩ => rfl | ⟨1, _⟩ => absurd rfl hb)
    (by show k.val + 128 = 128 + k.val; omega)

/-- THE SHARED CORE of the two bodies: the side-by-side rows times the stacked weights into zero, plus the bias row. -/
theorem core_apply (a x : FVec Ideal S5000x128 .bf16) (w : FVec Ideal S256x128 .bf16) (r : FVec Ideal S1x128 .f32)
    (p : Fin 5000) (q : Fin 128) :
    addf (matmul dot_S5000x256_S256x128_S5000x128_1_0_0_1_n_n none
          (concatenate S5000x256 1 [⟨S5000x128, a⟩, ⟨S5000x128, x⟩] concatenates_S5000x128_S5000x128_S5000x256_d1) w
          (constant S5000x128 .f32 0x00000000#32))
        (broadcastTo S5000x128 r broadcasts_S1x128_S5000x128) (ix2 p q)
      = ((∑ k : Fin 128, a (ix2 p k) * w (ix2 (lo k) q)) + ∑ k : Fin 128, x (ix2 p k) * w (ix2 (hi k) q))
          + r (ix2 (0 : Fin 1) q) := by
  refine (addf_apply _ _ _).trans (congrArg₂ (· + ·) ?_ ?_)
  · refine (LibMatmulNN.matmul_zero_apply 5000 256 128 none _ w p q).trans ?_
    rw [sum_halves]
    refine congrArg₂ (· + ·) (Finset.sum_congr rfl fun k _ => ?_) (Finset.sum_congr rfl fun k _ => ?_)
    · rw [beside_lo]
    · rw [beside_hi]
  · exact broadcastTo_1b_ab_apply r broadcasts_S1x128_S5000x128 p q

/-- THE SECOND BODY'S store at row `p`, column `q` of the block. -/
theorem pay1_apply (x0 : Vec Ideal S5000x128 .f32) (x1 : Vec Ideal S5000x1 .f32) (x2 : Vec Ideal S5000x128 .f32)
    (x3 : Vec Ideal S256x128 .f32) (x4 : Vec Ideal S1x128 .f32) (p : Fin 5000) (q : Fin 128) :
    k1_pay1 (F := Ideal) x0 x1 x2 x3 x4 (ix2 p q)
      = ((∑ k : Fin 128, (x0 (ix2 p k) * x1 (ix2 p (0 : Fin 1))) * x3 (ix2 (lo k) q))
          + ∑ k : Fin 128, x2 (ix2 p k) * x3 (ix2 (hi k) q)) + x4 (ix2 (0 : Fin 1) q) := by
  unfold k1_pay1
  refine (core_apply _ _ _ _ p q).trans ?_
  refine congrArg₂ (· + ·) (congrArg₂ (· + ·) (Finset.sum_congr rfl fun k _ => ?_) (Finset.sum_congr rfl fun k _ => ?_)) ?_
  · show (shapeCast S5000x128 x0 shapeCasts_S5000x128_S5000x128 (ix2 p k)
        * broadcastTo S5000x128 (shapeCast S5000x1 x1 shapeCasts_S5000x1_S5000x1) broadcasts_S5000x1_S5000x128 (ix2 p k))
        * shapeCast S256x128 x3 shapeCasts_S256x128_S256x128 (ix2 (lo k) q) = _
    rw [broadcastTo_a1_ab_apply, shapeCast_self, shapeCast_self, shapeCast_self]
  · show shapeCast S5000x128 x2 shapeCasts_S5000x128_S5000x128 (ix2 p k)
        * shapeCast S256x128 x3 shapeCasts_S256x128_S256x128 (ix2 (hi k) q) = _
    rw [shapeCast_self, shapeCast_self]
  · show shapeCast S1x128 x4 shapeCasts_S1x128_S1x128 (ix2 (0 : Fin 1) q) = _
    rw [shapeCast_self]

/-- THE FIRST BODY'S store at row `p`, column `q` of the block: the same, clamped below at zero. -/
theorem pay0_apply (x0 : Vec Ideal S5000x128 .f32) (x1 : Vec Ideal S5000x1 .f32) (x2 : Vec Ideal S5000x128 .f32)
    (x3 : Vec Ideal S256x128 .f32) (x4 : Vec Ideal S1x128 .f32) (p : Fin 5000) (q : Fin 128) :
    k0_pay1 (F := Ideal) x0 x1 x2 x3 x4 (ix2 p q)
      = max (((∑ k : Fin 128, (x0 (ix2 p k) * x1 (ix2 p (0 : Fin 1))) * x3 (ix2 (lo k) q))
          + ∑ k : Fin 128, x2 (ix2 p k) * x3 (ix2 (hi k) q)) + x4 (ix2 (0 : Fin 1) q)) (Ideal.ofBits .f32 0x00000000#32) := by
  unfold k0_pay1
  refine (maximumf_apply _ _ _).trans (congrArg₂ max ?_ rfl)
  refine (core_apply _ _ _ _ p q).trans ?_
  refine congrArg₂ (· + ·) (congrArg₂ (· + ·) (Finset.sum_congr rfl fun k _ => ?_) (Finset.sum_congr rfl fun k _ => ?_)) ?_
  · show (shapeCast S5000x128 x0 shapeCasts_S5000x128_S5000x128 (ix2 p k)
        * broadcastTo S5000x128 (shapeCast S5000x1 x1 shapeCasts_S5000x1_S5000x1) broadcasts_S5000x1_S5000x128 (ix2 p k))
        * shapeCast S256x128 x3 shapeCasts_S256x128_S256x128 (ix2 (lo k) q) = _
    rw [broadcastTo_a1_ab_apply, shapeCast_self, shapeCast_self, shapeCast_self]
  · show x2 (ix2 p k) * shapeCast S256x128 x3 shapeCasts_S256x128_S256x128 (ix2 (hi k) q) = _
    rw [shapeCast_self]
  · show shapeCast S1x128 x4 shapeCasts_S1x128_S1x128 (ix2 (0 : Fin 1) q) = _
    rw [shapeCast_self]

end Cert.KernelIdeal.Payload

end
-- ==== Proof.Blocks1.lean ====
/-
  REGION 1 of the kernel: what its output array holds after the region, as one function of the arrays it is entered with.

  The region walks 10 grid points; point `t` fetches rows `5000·t … 5000·t + 4999` of the aggregated features, of the
  reciprocal degrees and of the node features, the whole stacked weights and the whole bias row, runs the body on them,
  and writes the body's block back to the same rows of the output. The body's block is the fused layer of those rows
  (Payload), so block `t` of the output is block `t` of ONE whole-array function of the entry arrays — the fused
  layer — and the ten blocks tile the 50000 rows: the output array ends holding that function everywhere.
-/
import proofs.«110145_j18468359373225_2_alg».proof.Proof.Gen.KernelIdeal.Frame
import proofs.«110145_j18468359373225_2_alg».proof.Proof.Payload

set_option maxRecDepth 16384

noncomputable section

open scoped BigOperators

namespace Cert.KernelIdeal.Blocks1

open Cert.KernelIdeal Cert.KernelIdeal.Gen Idealize.ShloMosaic Idealize.ShloMosaic.TcCoe Idealize.ShloMosaic.ValueIdx
open Idealize.SL.Sem Cert.Sage
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The five entry arrays the region reads, as plain functions of an index. -/
abbrev aggA (c : Dev nD) : Nodes.Idx → EReal := V c main_v36
abbrev invA (c : Dev nD) : Col.Idx → EReal := V c main_v11
abbrev xA (c : Dev nD) : Nodes.Idx → EReal := V c main_v26
abbrev wA (c : Dev nD) : WtCat.Idx → EReal := V c main_v40
abbrev bA (c : Dev nD) : BiasRow.Idx → EReal := V c main_v37

/-- WHAT THE OUTPUT ARRAY ENDS HOLDING: the fused layer of the entry arrays. -/
def G (c : Dev nD) : Nodes.Idx → EReal := fun i =>
  fusedAt (aggA V c) (xA V c) (invA V c) (wA V c) (bA V c) (i 0) (i 1)

/-- The printed index maps, decided over the 10 grid points: the three row-blocked inputs and the output sit at block
    `t` of the rows and block 0 of the columns; the weights and the bias row are their whole arrays. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 ∧ t.val < 10 :=
  (by decide +kernel : ∀ t : Fin grid1.N, _)

/-- Row `p` of block `t` is row `5000·t + p` of the array. -/
def row (t : Fin cfg1.N) (p : Fin 5000) : Fin 50000 :=
  ⟨t.val * 5000 + p.val, by have := (idx_facts t).2.2.2.2.2.2.2.2.2.2.2.2; have := p.isLt; omega⟩

/-- The fetched block of aggregated features at point `t` is rows `5000·t …` of the array. -/
theorem blk_agg (c : Dev nD) (t : Fin cfg1.N) (p : Fin 5000) (k : Fin 128) :
    iblk1 V c 0 t (ix2 p k) = aggA V c (ix2 (row t p) k) := by
  obtain ⟨e0, e1, -⟩ := idx_facts t
  show V c main_v36 (((cfg1.win 0).blk t).view.emb (ix2 p k)) = V c main_v36 (ix2 (row t p) k)
  refine congrArg _ (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * k.val = k.val; omega

/-- The fetched block of reciprocal degrees at point `t` is rows `5000·t …` of the column. -/
theorem blk_inv (c : Dev nD) (t : Fin cfg1.N) (p : Fin 5000) :
    iblk1 V c 1 t (ix2 p (0 : Fin 1)) = invA V c (ix2 (row t p) (0 : Fin 1)) := by
  obtain ⟨-, -, e0, e1, -⟩ := idx_facts t
  show V c main_v11 (((cfg1.win 1).blk t).view.emb (ix2 p (0 : Fin 1))) = V c main_v11 (ix2 (row t p) (0 : Fin 1))
  refine congrArg _ (funext fun a => Fin.ext ?_)
  match a with
  | ⟨0, _⟩ => show win1_1.index t (0 : Fin 2) * 5000 + 1 * p.val = t.val * 5000 + p.val; omega
  | ⟨1, _⟩ => show win1_1.index t (1 : Fin 2) * 1 + 1 * 0 = 0; omega

/-- The fetched block of node features at point `t` is rows `5000·t …` of the array. -/
theorem blk_x (c : Dev nD) (t : Fin cfg1.N) (p : Fin 5000) (k : Fin 128) :
    iblk1 V c 2 t (ix2 p k) = xA V c (ix2 (row t p) k) := by
  obtain ⟨-, -, -, -, e0, e1, -⟩ := idx_facts t
  show V c main_v26 (((cfg1.win 2).blk t).view.emb (ix2 p k)) = V c main_v26 (ix2 (row t p) k)
  refine congrArg _ (funext fun a => Fin.ext ?_)
  match a with
  | ⟨0, _⟩ => show win1_2.index t (0 : Fin 2) * 5000 + 1 * p.val = t.val * 5000 + p.val; omega
  | ⟨1, _⟩ => show win1_2.index t (1 : Fin 2) * 128 + 1 * k.val = k.val; omega

/-- The stacked weights are fetched whole. -/
theorem blk_w (c : Dev nD) (t : Fin cfg1.N) (k : Fin 256) (q : Fin 128) :
    iblk1 V c 3 t (ix2 k q) = wA V c (ix2 k q) := by
  obtain ⟨-, -, -, -, -, -, e0, e1, -⟩ := idx_facts t
  show V c main_v40 (((cfg1.win 3).blk t).view.emb (ix2 k q)) = V c main_v40 (ix2 k q)
  refine congrArg _ (funext fun a => Fin.ext ?_)
  match a with
  | ⟨0, _⟩ => show win1_3.index t (0 : Fin 2) * 256 + 1 * k.val = k.val; omega
  | ⟨1, _⟩ => show win1_3.index t (1 : Fin 2) * 128 + 1 * q.val = q.val; omega

/-- The bias row is fetched whole. -/
theorem blk_b (c : Dev nD) (t : Fin cfg1.N) (q : Fin 128) :
    iblk1 V c 4 t (ix2 (0 : Fin 1) q) = bA V c (ix2 (0 : Fin 1) q) := by
  obtain ⟨-, -, -, -, -, -, -, -, e0, e1, -⟩ := idx_facts t
  show V c main_v37 (((cfg1.win 4).blk t).view.emb (ix2 (0 : Fin 1) q)) = V c main_v37 (ix2 (0 : Fin 1) q)
  refine congrArg _ (funext fun a => Fin.ext ?_)
  match a with
  | ⟨0, _⟩ => show win1_4.index t (0 : Fin 2) * 1 + 1 * 0 = 0; omega
  | ⟨1, _⟩ => show win1_4.index t (1 : Fin 2) * 128 + 1 * q.val = q.val; omega

/-- WHAT POINT `t` WRITES BACK is block `t` of `G`. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S5000x1) hz, View.ld_unit_zero (S := S256x128) hz,
    View.ld_unit_zero (S := S1x128) hz]
  obtain ⟨-, -, -, -, -, -, -, -, -, -, e0, e1, -⟩ := idx_facts t
  funext j
  obtain ⟨p, q, rfl⟩ : ∃ (p : Fin 5000) (q : Fin 128), j = ix2 p q := ⟨j 0, j 1, eq_ix2 j⟩
  have hemb : ((cfg1.win 5).blk t).view.emb (ix2 p q) = (ix2 (row t p) q : Nodes.Idx) := by
    funext a; apply Fin.ext
    match a with
    | ⟨0, _⟩ => show win1_5.index t (0 : Fin 2) * 5000 + 1 * p.val = t.val * 5000 + p.val; omega
    | ⟨1, _⟩ => show win1_5.index t (1 : Fin 2) * 128 + 1 * q.val = q.val; omega
  show k1_pay1 (iblk1 V c 0 t) (iblk1 V c 1 t) (iblk1 V c 2 t) (iblk1 V c 3 t) (iblk1 V c 4 t) (ix2 p q)
    = G V c (((cfg1.win 5).blk t).view.emb (ix2 p q))
  rw [hemb]
  refine (Payload.pay1_apply _ _ _ _ _ p q).trans ?_
  unfold G fusedAt
  simp only [blk_agg, blk_inv, blk_x, blk_w, blk_b]

/-- An index of the array is in point `t`'s block iff each coordinate is in the block's range on its axis. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v41).slice (win1_5.rect t)).set ↔ _
  rw [View.set_slice_whole, Rect.mem_set_unit]
  exact Iff.rfl

/-- The ten blocks tile the rows: row `r` is in the block of point `r / 5000`. -/
theorem cover (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  obtain ⟨-, -, -, -, -, -, -, -, -, -, e0, e1, -⟩ := idx_facts t
  have ht : t.val = (i 0).val / 5000 := rfl
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- THE OUTPUT ARRAY after the region is `G` of the entry arrays. -/
theorem final (c : Dev nD) : (dat1 V c).arrAt 5 cfg1.N = G V c :=
  (dat1 V c).arrAt_eq_of_cover 5 (G V c) (fun t _ => flushed_eq V c t) cover

end Cert.KernelIdeal.Blocks1

end
-- ==== Proof.Blocks0.lean ====
/-
  REGION 0 of the kernel: what its output array holds after the region, as one function of the arrays it is entered with.

  The region walks 10 grid points; point `t` fetches rows `5000·t … 5000·t + 4999` of the aggregated features, of the
  reciprocal degrees and of the node features, the whole stacked weights and the whole bias row, runs the body on them,
  and writes the body's block back to the same rows of the output. The body's block is the fused layer of those rows
  (Payload), so block `t` of the output is block `t` of ONE whole-array function of the entry arrays — the fused
  layer, clamped below at zero — and the ten blocks tile the 50000 rows: the output array ends holding that function everywhere.
-/
import proofs.«110145_j18468359373225_2_alg».proof.Proof.Gen.KernelIdeal.Frame
import proofs.«110145_j18468359373225_2_alg».proof.Proof.Payload

set_option maxRecDepth 16384

noncomputable section

open scoped BigOperators

namespace Cert.KernelIdeal.Blocks0

open Cert.KernelIdeal Cert.KernelIdeal.Gen Idealize.ShloMosaic Idealize.ShloMosaic.TcCoe Idealize.ShloMosaic.ValueIdx
open Idealize.SL.Sem Cert.Sage
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The five entry arrays the region reads, as plain functions of an index. -/
abbrev aggA (c : Dev nD) : Nodes.Idx → EReal := V c main_v21
abbrev invA (c : Dev nD) : Col.Idx → EReal := V c main_v11
abbrev xA (c : Dev nD) : Nodes.Idx → EReal := V c main_arg0
abbrev wA (c : Dev nD) : WtCat.Idx → EReal := V c main_v25
abbrev bA (c : Dev nD) : BiasRow.Idx → EReal := V c main_v22

/-- WHAT THE OUTPUT ARRAY ENDS HOLDING: the fused layer of the entry arrays, clamped below at zero. -/
def G (c : Dev nD) : Nodes.Idx → EReal := fun i =>
  max (fusedAt (aggA V c) (xA V c) (invA V c) (wA V c) (bA V c) (i 0) (i 1)) (Ideal.ofBits .f32 0x00000000#32)

/-- The printed index maps, decided over the 10 grid points: the three row-blocked inputs and the output sit at block
    `t` of the rows and block 0 of the columns; the weights and the bias row are their whole arrays. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 ∧ t.val < 10 :=
  (by decide +kernel : ∀ t : Fin grid0.N, _)

/-- Row `p` of block `t` is row `5000·t + p` of the array. -/
def row (t : Fin cfg0.N) (p : Fin 5000) : Fin 50000 :=
  ⟨t.val * 5000 + p.val, by have := (idx_facts t).2.2.2.2.2.2.2.2.2.2.2.2; have := p.isLt; omega⟩

/-- The fetched block of aggregated features at point `t` is rows `5000·t …` of the array. -/
theorem blk_agg (c : Dev nD) (t : Fin cfg0.N) (p : Fin 5000) (k : Fin 128) :
    iblk0 V c 0 t (ix2 p k) = aggA V c (ix2 (row t p) k) := by
  obtain ⟨e0, e1, -⟩ := idx_facts t
  show V c main_v21 (((cfg0.win 0).blk t).view.emb (ix2 p k)) = V c main_v21 (ix2 (row t p) k)
  refine congrArg _ (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

/-- The fetched block of reciprocal degrees at point `t` is rows `5000·t …` of the column. -/
theorem blk_inv (c : Dev nD) (t : Fin cfg0.N) (p : Fin 5000) :
    iblk0 V c 1 t (ix2 p (0 : Fin 1)) = invA V c (ix2 (row t p) (0 : Fin 1)) := by
  obtain ⟨-, -, e0, e1, -⟩ := idx_facts t
  show V c main_v11 (((cfg0.win 1).blk t).view.emb (ix2 p (0 : Fin 1))) = V c main_v11 (ix2 (row t p) (0 : Fin 1))
  refine congrArg _ (funext fun a => Fin.ext ?_)
  match a with
  | ⟨0, _⟩ => show win0_1.index t (0 : Fin 2) * 5000 + 1 * p.val = t.val * 5000 + p.val; omega
  | ⟨1, _⟩ => show win0_1.index t (1 : Fin 2) * 1 + 1 * 0 = 0; omega

/-- The fetched block of node features at point `t` is rows `5000·t …` of the array. -/
theorem blk_x (c : Dev nD) (t : Fin cfg0.N) (p : Fin 5000) (k : Fin 128) :
    iblk0 V c 2 t (ix2 p k) = xA V c (ix2 (row t p) k) := by
  obtain ⟨-, -, -, -, e0, e1, -⟩ := idx_facts t
  show V c main_arg0 (((cfg0.win 2).blk t).view.emb (ix2 p k)) = V c main_arg0 (ix2 (row t p) k)
  refine congrArg _ (funext fun a => Fin.ext ?_)
  match a with
  | ⟨0, _⟩ => show win0_2.index t (0 : Fin 2) * 5000 + 1 * p.val = t.val * 5000 + p.val; omega
  | ⟨1, _⟩ => show win0_2.index t (1 : Fin 2) * 128 + 1 * k.val = k.val; omega

/-- The stacked weights are fetched whole. -/
theorem blk_w (c : Dev nD) (t : Fin cfg0.N) (k : Fin 256) (q : Fin 128) :
    iblk0 V c 3 t (ix2 k q) = wA V c (ix2 k q) := by
  obtain ⟨-, -, -, -, -, -, e0, e1, -⟩ := idx_facts t
  show V c main_v25 (((cfg0.win 3).blk t).view.emb (ix2 k q)) = V c main_v25 (ix2 k q)
  refine congrArg _ (funext fun a => Fin.ext ?_)
  match a with
  | ⟨0, _⟩ => show win0_3.index t (0 : Fin 2) * 256 + 1 * k.val = k.val; omega
  | ⟨1, _⟩ => show win0_3.index t (1 : Fin 2) * 128 + 1 * q.val = q.val; omega

/-- The bias row is fetched whole. -/
theorem blk_b (c : Dev nD) (t : Fin cfg0.N) (q : Fin 128) :
    iblk0 V c 4 t (ix2 (0 : Fin 1) q) = bA V c (ix2 (0 : Fin 1) q) := by
  obtain ⟨-, -, -, -, -, -, -, -, e0, e1, -⟩ := idx_facts t
  show V c main_v22 (((cfg0.win 4).blk t).view.emb (ix2 (0 : Fin 1) q)) = V c main_v22 (ix2 (0 : Fin 1) q)
  refine congrArg _ (funext fun a => Fin.ext ?_)
  match a with
  | ⟨0, _⟩ => show win0_4.index t (0 : Fin 2) * 1 + 1 * 0 = 0; omega
  | ⟨1, _⟩ => show win0_4.index t (1 : Fin 2) * 128 + 1 * q.val = q.val; omega

/-- WHAT POINT `t` WRITES BACK is block `t` of `G`. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S5000x1) hz, View.ld_unit_zero (S := S256x128) hz,
    View.ld_unit_zero (S := S1x128) hz]
  obtain ⟨-, -, -, -, -, -, -, -, -, -, e0, e1, -⟩ := idx_facts t
  funext j
  obtain ⟨p, q, rfl⟩ : ∃ (p : Fin 5000) (q : Fin 128), j = ix2 p q := ⟨j 0, j 1, eq_ix2 j⟩
  have hemb : ((cfg0.win 5).blk t).view.emb (ix2 p q) = (ix2 (row t p) q : Nodes.Idx) := by
    funext a; apply Fin.ext
    match a with
    | ⟨0, _⟩ => show win0_5.index t (0 : Fin 2) * 5000 + 1 * p.val = t.val * 5000 + p.val; omega
    | ⟨1, _⟩ => show win0_5.index t (1 : Fin 2) * 128 + 1 * q.val = q.val; omega
  show k0_pay1 (iblk0 V c 0 t) (iblk0 V c 1 t) (iblk0 V c 2 t) (iblk0 V c 3 t) (iblk0 V c 4 t) (ix2 p q)
    = G V c (((cfg0.win 5).blk t).view.emb (ix2 p q))
  rw [hemb]
  refine (Payload.pay0_apply _ _ _ _ _ p q).trans ?_
  unfold G fusedAt
  simp only [blk_agg, blk_inv, blk_x, blk_w, blk_b]

/-- An index of the array is in point `t`'s block iff each coordinate is in the block's range on its axis. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v26).slice (win0_5.rect t)).set ↔ _
  rw [View.set_slice_whole, Rect.mem_set_unit]
  exact Iff.rfl

/-- The ten blocks tile the rows: row `r` is in the block of point `r / 5000`. -/
theorem cover (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨-, -, -, -, -, -, -, -, -, -, e0, e1, -⟩ := idx_facts t
  have ht : t.val = (i 0).val / 5000 := rfl
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- THE OUTPUT ARRAY after the region is `G` of the entry arrays. -/
theorem final (c : Dev nD) : (dat0 V c).arrAt 5 cfg0.N = G V c :=
  (dat0 V c).arrAt_eq_of_cover 5 (G V c) (fun t _ => flushed_eq V c t) cover

end Cert.KernelIdeal.Blocks0

end
-- ==== Proof.LibMeanAlgebra.lean ====
/-
  The algebra of a mean-aggregating graph layer on the extended reals.

  Three facts, none about any program:
  * a finite sum of nonnegative reals, taken in the extended reals, is a nonnegative real — so a node's in-degree,
    counted by adding a one for every incoming edge, is a nonnegative real, and its maximum with one is a positive real;
  * dividing every entry of a row by a positive real `y` BEFORE contracting the row with a column gives the
    contraction multiplied by `1 / y` AFTER: `∑ₖ (aₖ / y) · wₖ = (∑ₖ aₖ · wₖ) · (1 / y)`. On the extended reals this
    needs no finiteness of `a` or `w`: the reciprocal of a positive real is a nonnegative real different from `⊤`, and
    multiplication by such a factor distributes over every sum of extended reals, infinite terms included;
  * the float pattern of `1.0` denotes the real one.
-/
import Idealize.ShloMosaic.PureOps.Ideal.Laws

noncomputable section

open scoped BigOperators

namespace LibMeanAlgebra

open Idealize.ShloMosaic

/-- The pattern of `1.0` denotes one. -/
theorem ofBits_one : Ideal.ofBits .f32 0x3F800000#32 = 1 := by
  simp [Ideal.ofBits, Ideal.ieee, -EReal.coe_mul]; norm_num

/-- A finite sum of nonnegative reals, taken in the extended reals, is a nonnegative real. -/
theorem sum_real_nonneg {ι : Type} (s : Finset ι) (f : ι → EReal)
    (hf : ∀ j ∈ s, ∃ r : ℝ, 0 ≤ r ∧ f j = (r : EReal)) :
    ∃ r : ℝ, 0 ≤ r ∧ ∑ j ∈ s, f j = (r : EReal) := by
  classical
  induction s using Finset.induction_on with
  | empty => exact ⟨0, le_refl 0, by simp⟩
  | insert a s ha ih =>
    obtain ⟨r, hr, e⟩ := hf a (Finset.mem_insert_self a s)
    obtain ⟨r', hr', e'⟩ := ih (fun j hj => hf j (Finset.mem_insert_of_mem hj))
    exact ⟨r + r', add_nonneg hr hr', by rw [Finset.sum_insert ha, e, e', EReal.coe_add]⟩

/-- COUNTING BY SCATTER: adding a one into a zero array for every update that lands on an element leaves, at every
    element, a nonnegative real (the number of updates that landed there). -/
theorem scatter_ones_real {s si su : Shape} (d : ScatterDims s si su) {w : Nat} (x : s.Idx → EReal) (idx : IVec si w)
    (upd : su.Idx → EReal) (i : s.Idx) (hx : x i = 0) (hu : ∀ j, upd j = 1) :
    ∃ r : ℝ, 0 ≤ r ∧ Ideal.hostScatterAdd d x idx upd i = (r : EReal) := by
  obtain ⟨r, hr, e⟩ := sum_real_nonneg (Finset.univ.filter fun j => d.resultIdx? j idx = some i) upd
    (fun j _ => ⟨1, zero_le_one, by rw [hu j, EReal.coe_one]⟩)
  exact ⟨r, hr, by unfold Ideal.hostScatterAdd; rw [hx, zero_add, e]⟩

/-- The maximum of a nonnegative real with one is a positive real. -/
theorem max_one_pos {z one : EReal} (hone : one = 1) (hz : ∃ r : ℝ, 0 ≤ r ∧ z = (r : EReal)) :
    ∃ y : ℝ, 0 < y ∧ max z one = (y : EReal) := by
  obtain ⟨r, _, rfl⟩ := hz
  refine ⟨max r 1, lt_of_lt_of_le zero_lt_one (le_max_right r 1), ?_⟩
  rw [hone, ← EReal.coe_one]
  exact (EReal.coe_strictMono.monotone.map_max).symm

/-- Multiplication by a nonnegative real distributes over a finite sum of extended reals. -/
theorem sum_mul_real {ι : Type} (s : Finset ι) (f : ι → EReal) {c : EReal} (hc : 0 ≤ c) (hct : c ≠ ⊤) :
    ∑ k ∈ s, f k * c = (∑ k ∈ s, f k) * c := by
  classical
  induction s using Finset.induction_on with
  | empty => simp
  | insert j s hj ih =>
    rw [Finset.sum_insert hj, Finset.sum_insert hj, ih, EReal.right_distrib_of_nonneg_of_ne_top hc hct]

/-- THE MEAN COMMUTES WITH THE LINEAR MAP: dividing a row by a positive real before contracting it with a column is
    multiplying the contraction by the reciprocal afterwards. `one` is any spelling of the real one. -/
theorem sum_div_mul {ι : Type} [Fintype ι] (a w : ι → EReal) {one : EReal} (hone : one = 1) {y : ℝ} (hy : 0 < y) :
    ∑ k, Ideal.div (a k) (y : EReal) * w k = (∑ k, a k * w k) * Ideal.div one (y : EReal) := by
  have hy0 : y ≠ 0 := ne_of_gt hy
  have hc : (0 : EReal) ≤ ((1 / y : ℝ) : EReal) := by exact_mod_cast (one_div_pos.mpr hy).le
  rw [hone, Ideal.div_coe hy0 1, one_mul, ← sum_mul_real Finset.univ _ hc (EReal.coe_ne_top _)]
  refine Finset.sum_congr rfl fun k _ => ?_
  rw [Ideal.div_coe hy0, mul_right_comm]

end LibMeanAlgebra

end
-- ==== Proof.LibHostIdeal.lean ====
/-
  Two host operations on the extended reals, as the exact operations they are.

  At the ideal reading a float is an extended real and every operation is the exact one. For an operation the host applies
  through the float instance — the accumulating scatter (several updates may land on one element) and the quotient — this
  is the statement that the instance's field is the exact operation. Stated once over arbitrary operands, it is a
  rewriting rule for terms whose operands are long: the operation's name is replaced by the exact operation without
  the operands being looked into.
-/
import Idealize.ShloMosaic.PureOps.Ideal.Laws

noncomputable section

namespace LibHostIdeal

open Idealize.ShloMosaic

/-- On the extended reals the host's accumulating scatter is the exact one: each operand element plus the sum of the
    updates that land on it. -/
theorem scatterAdd_ideal {s si u : Shape} {φ : FTy} {w : Nat} (d : ScatterDims s si u) (x : FVec Ideal s φ) (idx : IVec si w)
    (upd : FVec Ideal u φ) : Host.scatterAdd d x idx upd = Ideal.hostScatterAdd d x idx upd := rfl

/-- On the extended reals the host's quotient of two arrays is, at each element, the exact quotient of the two elements. -/
theorem divf_ideal_apply {s : Shape} {φ : FTy} (a b : FVec Ideal s φ) (i : s.Idx) :
    Host.divf a b i = Ideal.div (a i) (b i) := rfl

end LibHostIdeal

end
-- ==== Proof.RefDegree.lean ====
/-
  The in-degree column of the reference: a positive real at every node.

  The reference counts a node's incoming edges by adding a one into a zero column for every edge that ends at the
  node, and clamps the count below at one. A count is a finite sum of ones, a nonnegative real; its maximum with one
  is a positive real. So dividing by it is a total, finite operation on the extended reals, and the column of
  reciprocals `1 / deg` is what the fused arrangement multiplies by. Both layers clamp the same count.
-/
import proofs.«110145_j18468359373225_2_alg».proof.Proof.Gen.ReferenceIdeal.Read
import proofs.«110145_j18468359373225_2_alg».proof.Proof.LibMeanAlgebra
import proofs.«110145_j18468359373225_2_alg».proof.Proof.LibHostIdeal
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx

/-- The float pattern of `1.0`, as both programs write it. -/
abbrev onePat : EReal := Ideal.ofBits .f32 0x3F800000#32

theorem onePat_eq : onePat = 1 := LibMeanAlgebra.ofBits_one

/-- The column of ones the count is clamped against. -/
theorem ones_col (i : S50000x1.Idx) : val_main_v18 (F := Ideal) i = onePat := by
  rw [val_main_v18_apply, val_main_cst_3_apply, Ideal.ofBits_def]

/-- The column the count starts from is zero. -/
theorem zeros_col (i : S50000x1.Idx) : val_main_v15 (F := Ideal) i = 0 := by
  rw [val_main_v15_apply, val_main_cst_2_apply, Ideal.ofBits_def, Ideal.ofBits_zero_f32]

/-- Every edge contributes a one. -/
theorem ones_upd (j : S800000x1.Idx) : val_main_v14 (F := Ideal) j = 1 := by
  rw [val_main_v14_apply, val_main_cst_1_apply, Ideal.ofBits_def, LibMeanAlgebra.ofBits_one]

/-- The count of a node's incoming edges is a nonnegative real. -/
theorem count_real (x1 : (⟨S2x800000, .i32⟩ : BufTy).Contents (Elt Ideal)) (i : S50000x1.Idx) :
    ∃ z : ℝ, 0 ≤ z ∧ val_main_v17 (F := Ideal) x1 i = (z : EReal) := by
  unfold val_main_v17
  rw [LibHostIdeal.scatterAdd_ideal]
  exact LibMeanAlgebra.scatter_ones_real _ _ _ _ i (zeros_col i) ones_upd

/-- THE CLAMPED IN-DEGREE of every node is a positive real. -/
theorem deg_pos (x1 : (⟨S2x800000, .i32⟩ : BufTy).Contents (Elt Ideal)) (r : Fin 50000) :
    ∃ y : ℝ, 0 < y ∧ val_main_v19 (F := Ideal) x1 (ix2 r (0 : Fin 1)) = (y : EReal) := by
  rw [val_main_v19_apply, Ideal.maximumf_def]
  exact LibMeanAlgebra.max_one_pos ((ones_col _).trans onePat_eq) (count_real x1 _)

/-- The column of reciprocals: one over the clamped in-degree. -/
def invCol (x1 : (⟨S2x800000, .i32⟩ : BufTy).Contents (Elt Ideal)) : FVec Ideal S50000x1 .f32 :=
  Host.divf (val_main_v18 (F := Ideal)) (val_main_v19 (F := Ideal) x1)

theorem invCol_apply (x1 : (⟨S2x800000, .i32⟩ : BufTy).Contents (Elt Ideal)) (r : Fin 50000) :
    invCol x1 (ix2 r (0 : Fin 1)) = Ideal.div onePat (val_main_v19 (F := Ideal) x1 (ix2 r (0 : Fin 1))) := by
  unfold invCol
  rw [LibHostIdeal.divf_ideal_apply, ones_col]

/-- Layer 1 clamps the same count: its degree column is layer 0's. -/
theorem deg1_eq (x1 : (⟨S2x800000, .i32⟩ : BufTy).Contents (Elt Ideal)) : val_main_v46 (F := Ideal) x1 = val_main_v19 (F := Ideal) x1 := rfl

end Cert.ReferenceIdeal.RefValue

end
-- ==== Proof.HostEntry0.lean ====
/-
  What the first region is entered with: the kernel's first stretch of host operations, read back.

  Before the first region the host slices the two rows of the edge list, gathers the source nodes' features and
  scatter-adds them at the destination nodes, counts the in-degrees by the same scatter of ones, clamps the count at one
  and takes its reciprocal, transposes the two weight matrices and stacks them, and lays the bias out as a row. The
  aggregate and the count are the SAME operations on the same operands as the reference's, so each array is stated as
  the reference's own stage of the launch contents; the reciprocal, the stacked weights and the bias row, which the
  reference does not form, are stated by their operations.
-/
import proofs.«110145_j18468359373225_2_alg».proof.Proof.Gen.KernelIdeal.Frame
import proofs.«110145_j18468359373225_2_alg».proof.Proof.RefDegree
import Idealize.ShloMosaic.Lib.StableHlo.Run

set_option maxRecDepth 16384

noncomputable section

namespace Cert.KernelIdeal.Entry0

open Cert.KernelIdeal Cert.KernelIdeal.Gen Idealize.ShloMosaic Idealize.ShloMosaic.TcCoe Idealize.SL.Sem Idealize.ShloMosaic.StableHlo
open Cert.ReferenceIdeal.Read Cert.ReferenceIdeal.RefValue

variable (m : (ℓ : Loc nD τ sig) → Buf (Elt Ideal) ℓ) (ρ : Dev nD → PrngReg)

set_option maxHeartbeats 8000000 in
/-- The aggregated neighbour features are the reference's. -/
theorem agg (c : Dev nD) :
    (V1 m ρ c main_v21 : S50000x128.Idx → EReal) = val_main_v13 (F := Ideal) (m ((c : Thread nD τ).loc main_arg0)) (m ((c : Thread nD τ).loc main_arg1)) := by
  show StableHlo.after hostOps0 (W0 m ρ c) (Proc.devRef .tc main_v21) = _
  after_results
  rfl

set_option maxHeartbeats 8000000 in
/-- The reciprocal column is one over the reference's clamped in-degree. -/
theorem inv (c : Dev nD) :
    (V1 m ρ c main_v11 : S50000x1.Idx → EReal) = invCol (m ((c : Thread nD τ).loc main_arg1)) := by
  show StableHlo.after hostOps0 (W0 m ρ c) (Proc.devRef .tc main_v11) = _
  after_results
  rfl

set_option maxHeartbeats 8000000 in
/-- The node features are the launch contents. -/
theorem feat (c : Dev nD) :
    (V1 m ρ c main_arg0 : S50000x128.Idx → EReal) = m ((c : Thread nD τ).loc main_arg0) := by
  show StableHlo.after hostOps0 (W0 m ρ c) (Proc.devRef .tc main_arg0) = _
  after_results <;> rfl

set_option maxHeartbeats 8000000 in
/-- The stacked weights: the left matrix transposed above the right matrix transposed. -/
theorem wcat (c : Dev nD) :
    (V1 m ρ c main_v25 : S256x128.Idx → EReal)
      = concatenate S256x128 0 [⟨S128x128, val_main_v22 (F := Ideal) (m ((c : Thread nD τ).loc main_arg2))⟩, ⟨S128x128, val_main_v27 (F := Ideal) (m ((c : Thread nD τ).loc main_arg4))⟩]
          concatenates_S128x128_S128x128_S256x128_d0 := by
  show StableHlo.after hostOps0 (W0 m ρ c) (Proc.devRef .tc main_v25) = _
  after_results
  rfl

set_option maxHeartbeats 8000000 in
/-- The bias as one row. -/
theorem brow (c : Dev nD) :
    (V1 m ρ c main_v22 : S1x128.Idx → EReal) = shapeCast S1x128 (m ((c : Thread nD τ).loc main_arg3)) shapeCasts_S128_S1x128 := by
  show StableHlo.after hostOps0 (W0 m ρ c) (Proc.devRef .tc main_v22) = _
  after_results
  rfl

set_option maxHeartbeats 8000000 in
/-- The source-node indices, as the reference slices them. -/
theorem src (c : Dev nD) :
    (W1 m ρ c (Proc.devRef .tc main_v1) : S800000.Idx → BitVec 32) = val_main_v1 (F := Ideal) (m ((c : Thread nD τ).loc main_arg1)) := by
  show StableHlo.after hostOps0 (W0 m ρ c) (Proc.devRef .tc main_v1) = _
  after_results
  rfl

set_option maxHeartbeats 8000000 in
/-- The destination-node indices, as the reference slices them. -/
theorem dst (c : Dev nD) :
    (W1 m ρ c (Proc.devRef .tc main_v3) : S800000.Idx → BitVec 32) = val_main_v3 (F := Ideal) (m ((c : Thread nD τ).loc main_arg1)) := by
  show StableHlo.after hostOps0 (W0 m ρ c) (Proc.devRef .tc main_v3) = _
  after_results
  rfl

end Cert.KernelIdeal.Entry0

end
-- ==== Proof.RefLayers.lean ====
/-
  The reference's run, read at an element: each of its two layers is the reference's arrangement of a mean-aggregating
  layer (SageAlgebra `layerAt`).

  Layer 0 at node `r`, feature `q`: the aggregate (a scatter-add of gathered rows, left unopened) divided by the clamped
  in-degree broadcast along the features, contracted with the transposed left weights; plus the bias broadcast down the
  nodes; plus the nodes' own features contracted with the transposed right weights; the whole clamped below at zero.
  Layer 1 is the same over layer 0's result, without the clamp. A transposed matrix read at `(k, q)` is the matrix at
  `(q, k)`, and a host contraction on the extended reals is the plain sum over `k`.
-/
import proofs.«110145_j18468359373225_2_alg».proof.Proof.Gen.ReferenceIdeal.Read
import proofs.«110145_j18468359373225_2_alg».proof.Proof.SageAlgebra

noncomputable section

open scoped BigOperators

namespace Cert.ReferenceIdeal.RefValue

open Cert.ReferenceIdeal Cert.ReferenceIdeal.Gen Cert.ReferenceIdeal.Read Idealize.ShloMosaic Idealize.ShloMosaic.ValueIdx Cert.Sage

/-! ## The composed index functions of the generated read lemmas, in coordinates -/

theorem lidx23 (r : Fin 50000) (q k : Fin 128) : lidx_main_v23 (ix2 r q) k = (ix2 r k : S50000x128.Idx) :=
  funext fun a => Fin.ext (by match a with | ⟨0, _⟩ => rfl | ⟨1, _⟩ => rfl)
theorem ridx23 (r : Fin 50000) (q k : Fin 128) : ridx_main_v23 (ix2 r q) k = (ix2 k q : S128x128.Idx) :=
  funext fun a => Fin.ext (by match a with | ⟨0, _⟩ => rfl | ⟨1, _⟩ => rfl)
theorem lidx28 (r : Fin 50000) (q k : Fin 128) : lidx_main_v28 (ix2 r q) k = (ix2 r k : S50000x128.Idx) :=
  funext fun a => Fin.ext (by match a with | ⟨0, _⟩ => rfl | ⟨1, _⟩ => rfl)
theorem ridx28 (r : Fin 50000) (q k : Fin 128) : ridx_main_v28 (ix2 r q) k = (ix2 k q : S128x128.Idx) :=
  funext fun a => Fin.ext (by match a with | ⟨0, _⟩ => rfl | ⟨1, _⟩ => rfl)
theorem lidx50 (r : Fin 50000) (q k : Fin 128) : lidx_main_v50 (ix2 r q) k = (ix2 r k : S50000x128.Idx) :=
  funext fun a => Fin.ext (by match a with | ⟨0, _⟩ => rfl | ⟨1, _⟩ => rfl)
theorem ridx50 (r : Fin 50000) (q k : Fin 128) : ridx_main_v50 (ix2 r q) k = (ix2 k q : S128x128.Idx) :=
  funext fun a => Fin.ext (by match a with | ⟨0, _⟩ => rfl | ⟨1, _⟩ => rfl)
theorem lidx55 (r : Fin 50000) (q k : Fin 128) : lidx_main_v55 (ix2 r q) k = (ix2 r k : S50000x128.Idx) :=
  funext fun a => Fin.ext (by match a with | ⟨0, _⟩ => rfl | ⟨1, _⟩ => rfl)
theorem ridx55 (r : Fin 50000) (q k : Fin 128) : ridx_main_v55 (ix2 r q) k = (ix2 k q : S128x128.Idx) :=
  funext fun a => Fin.ext (by match a with | ⟨0, _⟩ => rfl | ⟨1, _⟩ => rfl)
theorem tidx22 (k q : Fin 128) : idx_main_v22 (ix2 k q) = (ix2 q k : S128x128.Idx) :=
  funext fun a => Fin.ext (by match a with | ⟨0, _⟩ => rfl | ⟨1, _⟩ => rfl)
theorem tidx27 (k q : Fin 128) : idx_main_v27 (ix2 k q) = (ix2 q k : S128x128.Idx) :=
  funext fun a => Fin.ext (by match a with | ⟨0, _⟩ => rfl | ⟨1, _⟩ => rfl)
theorem tidx49 (k q : Fin 128) : idx_main_v49 (ix2 k q) = (ix2 q k : S128x128.Idx) :=
  funext fun a => Fin.ext (by match a with | ⟨0, _⟩ => rfl | ⟨1, _⟩ => rfl)
theorem tidx54 (k q : Fin 128) : idx_main_v54 (ix2 k q) = (ix2 q k : S128x128.Idx) :=
  funext fun a => Fin.ext (by match a with | ⟨0, _⟩ => rfl | ⟨1, _⟩ => rfl)
theorem didx20 (r : Fin 50000) (k : Fin 128) : idx_main_v20 (ix2 r k) = (ix2 r (0 : Fin 1) : S50000x1.Idx) :=
  funext fun a => Fin.ext (by match a with | ⟨0, _⟩ => rfl | ⟨1, _⟩ => rfl)
theorem didx47 (r : Fin 50000) (k : Fin 128) : idx_main_v47 (ix2 r k) = (ix2 r (0 : Fin 1) : S50000x1.Idx) :=
  funext fun a => Fin.ext (by match a with | ⟨0, _⟩ => rfl | ⟨1, _⟩ => rfl)
theorem bidx25 (r : Fin 50000) (q : Fin 128) : idx_main_v25 (ix2 r q) = (ix2 (0 : Fin 1) q : S1x128.Idx) :=
  funext fun a => Fin.ext (by match a with | ⟨0, _⟩ => rfl | ⟨1, _⟩ => rfl)
theorem bidx52 (r : Fin 50000) (q : Fin 128) : idx_main_v52 (ix2 r q) = (ix2 (0 : Fin 1) q : S1x128.Idx) :=
  funext fun a => Fin.ext (by match a with | ⟨0, _⟩ => rfl | ⟨1, _⟩ => rfl)
theorem vidx24 (q : Fin 128) : idx_main_v24 (ix2 (0 : Fin 1) q) = (ix1 q : S128.Idx) :=
  funext fun a => Fin.ext (by match a with | ⟨0, _⟩ => rfl)
theorem vidx51 (q : Fin 128) : idx_main_v51 (ix2 (0 : Fin 1) q) = (ix1 q : S128.Idx) :=
  funext fun a => Fin.ext (by match a with | ⟨0, _⟩ => rfl)

/-! ## The four contractions -/

/-- The contraction `%23` at node `r`, feature `q`: the plain sum over `k`, its right operand a transposed matrix. -/
theorem dot23_apply (x0 : (⟨S50000x128, .f32⟩ : BufTy).Contents (Elt Ideal)) (x1 : (⟨S2x800000, .i32⟩ : BufTy).Contents (Elt Ideal)) (x2 : (⟨S128x128, .f32⟩ : BufTy).Contents (Elt Ideal)) (r : Fin 50000) (q : Fin 128) :
    val_main_v23 (F := Ideal) x0 x1 x2 (ix2 r q)
      = ∑ k : Fin 128, val_main_v21 (F := Ideal) x0 x1 (ix2 r k) * x2 (ix2 q k) :=
  (val_main_v23_apply x0 x1 x2 (ix2 r q)).trans (Finset.sum_congr rfl fun k _ => by
    rw [lidx23 r q k, ridx23 r q k, val_main_v22_apply, tidx22 k q])

/-- The contraction `%28` at node `r`, feature `q`: the plain sum over `k`, its right operand a transposed matrix. -/
theorem dot28_apply (x0 : (⟨S50000x128, .f32⟩ : BufTy).Contents (Elt Ideal)) (x4 : (⟨S128x128, .f32⟩ : BufTy).Contents (Elt Ideal)) (r : Fin 50000) (q : Fin 128) :
    val_main_v28 (F := Ideal) x0 x4 (ix2 r q)
      = ∑ k : Fin 128, x0 (ix2 r k) * x4 (ix2 q k) :=
  (val_main_v28_apply x0 x4 (ix2 r q)).trans (Finset.sum_congr rfl fun k _ => by
    rw [lidx28 r q k, ridx28 r q k, val_main_v27_apply, tidx27 k q])

/-- The contraction `%50` at node `r`, feature `q`: the plain sum over `k`, its right operand a transposed matrix. -/
theorem dot50_apply (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (r : Fin 50000) (q : Fin 128) :
    val_main_v50 (F := Ideal) x0 x1 x2 x3 x4 x5 (ix2 r q)
      = ∑ k : Fin 128, val_main_v48 (F := Ideal) x0 x1 x2 x3 x4 (ix2 r k) * x5 (ix2 q k) :=
  (val_main_v50_apply x0 x1 x2 x3 x4 x5 (ix2 r q)).trans (Finset.sum_congr rfl fun k _ => by
    rw [lidx50 r q k, ridx50 r q k, val_main_v49_apply, tidx49 k q])

/-- The contraction `%55` at node `r`, feature `q`: the plain sum over `k`, its right operand a transposed matrix. -/
theorem dot55_apply (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x7 : (⟨S128x128, .f32⟩ : BufTy).Contents (Elt Ideal)) (r : Fin 50000) (q : Fin 128) :
    val_main_v55 (F := Ideal) x0 x1 x2 x3 x4 x7 (ix2 r q)
      = ∑ k : Fin 128, val_main_v30 (F := Ideal) x0 x1 x2 x3 x4 (ix2 r k) * x7 (ix2 q k) :=
  (val_main_v55_apply x0 x1 x2 x3 x4 x7 (ix2 r q)).trans (Finset.sum_congr rfl fun k _ => by
    rw [lidx55 r q k, ridx55 r q k, val_main_v54_apply, tidx54 k q])

/-! ## The mean and the bias -/

/-- The aggregate divided by the clamped degree, layer 0. -/
theorem mean0_apply (x0 : (⟨S50000x128, .f32⟩ : BufTy).Contents (Elt Ideal)) (x1 : (⟨S2x800000, .i32⟩ : BufTy).Contents (Elt Ideal)) (r : Fin 50000) (k : Fin 128) :
    val_main_v21 (F := Ideal) x0 x1 (ix2 r k)
      = Ideal.div (val_main_v13 (F := Ideal) x0 x1 (ix2 r k)) (val_main_v19 (F := Ideal) x1 (ix2 r (0 : Fin 1))) := by
  rw [val_main_v21_apply, val_main_v20_apply, didx20 r k, Ideal.hostDivf_def]

/-- The aggregate divided by the clamped degree, layer 1. -/
theorem mean1_apply (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (r : Fin 50000) (k : Fin 128) :
    val_main_v48 (F := Ideal) x0 x1 x2 x3 x4 (ix2 r k)
      = Ideal.div (val_main_v40 (F := Ideal) x0 x1 x2 x3 x4 (ix2 r k)) (val_main_v46 (F := Ideal) x1 (ix2 r (0 : Fin 1))) := by
  rw [val_main_v48_apply, val_main_v47_apply, didx47 r k, Ideal.hostDivf_def]

/-- The bias repeated down the nodes, layer 0 and layer 1. -/
theorem bias0_apply (x3 : (⟨S128, .f32⟩ : BufTy).Contents (Elt Ideal)) (r : Fin 50000) (q : Fin 128) :
    val_main_v25 (F := Ideal) x3 (ix2 r q) = x3 (ix1 q) := by
  rw [val_main_v25_apply, bidx25 r q, val_main_v24_apply, vidx24 q]
theorem bias1_apply (x6 : (⟨S128, .f32⟩ : BufTy).Contents (Elt Ideal)) (r : Fin 50000) (q : Fin 128) :
    val_main_v52 (F := Ideal) x6 (ix2 r q) = x6 (ix1 q) := by
  rw [val_main_v52_apply, bidx52 r q, val_main_v51_apply, vidx51 q]

/-! ## Layer 0 -/

/-- Layer 0 before the clamp, at node `r` and feature `q`. -/
theorem layer0_apply (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (r : Fin 50000) (q : Fin 128) :
    val_main_v29 (F := Ideal) x0 x1 x2 x3 x4 (ix2 r q)
      = layerAt (val_main_v13 (F := Ideal) x0 x1) x0 (val_main_v19 (F := Ideal) x1) x2 x4 x3 r q := by
  unfold layerAt
  rw [val_main_v29_apply, val_main_v26_apply, Ideal.addf_def, Ideal.addf_def, dot23_apply, bias0_apply, dot28_apply]
  refine congrArg₂ (· + ·) (congrArg₂ (· + ·) (Finset.sum_congr rfl fun k _ => ?_) rfl) rfl
  rw [mean0_apply]

/-- Layer 0, clamped below at zero: the hidden features. -/
theorem hidden_apply (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (r : Fin 50000) (q : Fin 128) :
    val_main_v30 (F := Ideal) x0 x1 x2 x3 x4 (ix2 r q)
      = max (layerAt (val_main_v13 (F := Ideal) x0 x1) x0 (val_main_v19 (F := Ideal) x1) x2 x4 x3 r q) (Ideal.ofBits .f32 0x00000000#32) := by
  rw [val_main_v30_apply, Ideal.maximumf_def, layer0_apply, val_main_call0_v0_apply, val_main_call0_cst_apply, Ideal.ofBits_def]

/-! ## Layer 1 -/

/-- Layer 1 at node `r` and feature `q`, over the hidden features and their aggregate. -/
theorem layer1_apply (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (r : Fin 50000) (q : Fin 128) :
    val_main_v56 (F := Ideal) x0 x1 x2 x3 x4 x5 x6 x7 (ix2 r q)
      = layerAt (val_main_v40 (F := Ideal) x0 x1 x2 x3 x4) (val_main_v30 (F := Ideal) x0 x1 x2 x3 x4) (val_main_v46 (F := Ideal) x1) x5 x7 x6 r q := by
  unfold layerAt
  rw [val_main_v56_apply, val_main_v53_apply, Ideal.addf_def, Ideal.addf_def, dot50_apply, bias1_apply, dot55_apply]
  refine congrArg₂ (· + ·) (congrArg₂ (· + ·) (Finset.sum_congr rfl fun k _ => ?_) rfl) rfl
  rw [mean1_apply]

end Cert.ReferenceIdeal.RefValue

end
-- ==== Proof.WeightStack.lean ====
/-
  Two `[128, 128]` matrices stacked into `[256, 128]`: rows 0…127 are the first matrix, rows 128…255 the second.
-/
import proofs.«110145_j18468359373225_2_alg».proof.Proof.SageAlgebra
import Idealize.ShloMosaic.Lib.Pipeline.Value

noncomputable section

namespace Cert.Sage

open Idealize.ShloMosaic Idealize.ShloMosaic.ValueIdx

variable {α : Type}

/-- Row `k` of the lower half of the stack is row `k` of the first matrix. -/
theorem stack_lo (a b : Wt.Idx → α) (h : Shape.Concatenates [Wt, Wt] WtCat 0) (k q : Fin 128) :
    concatenate WtCat 0 [⟨Wt, a⟩, ⟨Wt, b⟩] h (ix2 (lo k) q) = a (ix2 k q) :=
  concatenate_pair_apply_left (0 : Fin 2) a b h (ix2 (lo k) q) rfl (ix2 k q)
    (fun c => match c with | ⟨0, _⟩ => rfl | ⟨1, _⟩ => rfl)

/-- Row `128 + k` of the stack is row `k` of the second matrix. -/
theorem stack_hi (a b : Wt.Idx → α) (h : Shape.Concatenates [Wt, Wt] WtCat 0) (k q : Fin 128) :
    concatenate WtCat 0 [⟨Wt, a⟩, ⟨Wt, b⟩] h (ix2 (hi k) q) = b (ix2 k q) :=
  concatenate_pair_apply_right (0 : Fin 2) a b h (ix2 (hi k) q) rfl rfl (ix2 k q)
    (fun c hc => match c with | ⟨0, _⟩ => absurd rfl hc | ⟨1, _⟩ => rfl)
    (by show k.val + 128 = 128 + k.val; omega)

end Cert.Sage

end
-- ==== Proof.Layer0.lean ====
/-
  THE FIRST REGION COMPUTES THE REFERENCE'S HIDDEN FEATURES.

  The region's output array is the fused layer of its entry arrays, clamped at zero (Blocks0); the entry arrays are the
  reference's aggregate, one over the reference's clamped in-degree, the node features, the two weight matrices
  transposed and stacked, and the bias as a row (HostEntry0); the degree is a positive real (RefDegree), so the fused
  layer is the reference's arrangement (SageAlgebra), which is what the reference's first layer is, element by element
  (RefLayers).
-/
import proofs.«110145_j18468359373225_2_alg».proof.Proof.Blocks0
import proofs.«110145_j18468359373225_2_alg».proof.Proof.HostEntry0
import proofs.«110145_j18468359373225_2_alg».proof.Proof.RefLayers
import proofs.«110145_j18468359373225_2_alg».proof.Proof.WeightStack
import Idealize.ShloMosaic.Lib.ValueLayout

set_option maxRecDepth 16384

noncomputable section

namespace Cert.KernelIdeal.Layer0

open Cert.KernelIdeal Cert.KernelIdeal.Gen Idealize.ShloMosaic Idealize.ShloMosaic.TcCoe Idealize.ShloMosaic.ValueIdx Idealize.SL.Sem
open Cert.ReferenceIdeal.Read Cert.ReferenceIdeal.RefValue Cert.Sage

variable (m : (ℓ : Loc nD τ sig) → Buf (Elt Ideal) ℓ) (ρ : Dev nD → PrngReg)

/-- Region 0's output array after the region is the reference's hidden features of the launch contents. -/
theorem hidden (c : Dev nD) :
    (dat0 (V1 m ρ) c).arrAt 5 cfg0.N
      = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  rw [Blocks0.final]
  funext i
  obtain ⟨r, q, rfl⟩ : ∃ (r : Fin 50000) (q : Fin 128), i = ix2 r q := ⟨i 0, i 1, eq_ix2 i⟩
  rw [hidden_apply]
  unfold Blocks0.G
  dsimp only [Blocks0.aggA, Blocks0.invA, Blocks0.xA, Blocks0.wA, Blocks0.bA]
  rw [Entry0.agg, Entry0.inv, Entry0.feat, Entry0.wcat, Entry0.brow]
  refine congrArg₂ max ?_ rfl
  exact fusedAt_eq_layerAt _ _ _ (val_main_v19 (F := Ideal) (m ((c : Thread nD τ).loc main_arg1))) _ _ (m ((c : Thread nD τ).loc main_arg2)) (m ((c : Thread nD τ).loc main_arg4)) (m ((c : Thread nD τ).loc main_arg3)) onePat_eq
    (invCol_apply (m ((c : Thread nD τ).loc main_arg1))) (deg_pos (m ((c : Thread nD τ).loc main_arg1)))
    (fun k q => (stack_lo _ _ _ k q).trans ((val_main_v22_apply (m ((c : Thread nD τ).loc main_arg2)) (ix2 k q)).trans (congrArg _ (tidx22 k q))))
    (fun k q => (stack_hi _ _ _ k q).trans ((val_main_v27_apply (m ((c : Thread nD τ).loc main_arg4)) (ix2 k q)).trans (congrArg _ (tidx27 k q))))
    (fun q => shapeCast_a_1a_apply (m ((c : Thread nD τ).loc main_arg3)) shapeCasts_S128_S1x128 (0 : Fin 1) q) r q

end Cert.KernelIdeal.Layer0

end
-- ==== Proof.HostEntry1.lean ====
/-
  What the second region is entered with: the kernel's second stretch of host operations, read back.

  Between the regions the host gathers the source nodes' HIDDEN features (the first region's output array) and
  scatter-adds them at the destination nodes, transposes and stacks the second layer's weight matrices and lays its
  bias out as a row; the reciprocal degrees are reused. Each operand the stretch reads is read at the first region's exit:
  the first region's output array there is the reference's hidden features (Layer0); every other buffer the stretch
  reads was left by the first region as it was entered, so it is what the first stretch made it (HostEntry0) or the
  launch contents. Hence the aggregate is the reference's second aggregate of the launch contents.
-/
import proofs.«110145_j18468359373225_2_alg».proof.Proof.Layer0

set_option maxRecDepth 16384

noncomputable section

namespace Cert.KernelIdeal.Entry1

open Cert.KernelIdeal Cert.KernelIdeal.Gen Idealize.ShloMosaic Idealize.ShloMosaic.TcCoe Idealize.SL.Sem Idealize.ShloMosaic.StableHlo
open Cert.ReferenceIdeal.Read Cert.ReferenceIdeal.RefValue

variable (m : (ℓ : Loc nD τ sig) → Buf (Elt Ideal) ℓ) (ρ : Dev nD → PrngReg)

/-! ## The first region's exit contents, at the buffers the second stretch reads -/

/-- The first region's output array: the reference's hidden features. -/
theorem exit_hidden (c : Dev nD) :
    (W2 m ρ c (Proc.devRef .tc main_v26) : S50000x128.Idx → EReal) = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W2_arr m ρ c 5).trans (Layer0.hidden m ρ c)

/-- The source and destination indices are untouched by the first region. -/
theorem exit_src (c : Dev nD) :
    (W2 m ρ c (Proc.devRef .tc main_v1) : S800000.Idx → BitVec 32) = val_main_v1 (F := Ideal) (m ((c : Thread nD τ).loc main_arg1)) :=
  (W2_of_ne m ρ c main_v1 (by decide)).trans (Entry0.src m ρ c)
theorem exit_dst (c : Dev nD) :
    (W2 m ρ c (Proc.devRef .tc main_v3) : S800000.Idx → BitVec 32) = val_main_v3 (F := Ideal) (m ((c : Thread nD τ).loc main_arg1)) :=
  (W2_of_ne m ρ c main_v3 (by decide)).trans (Entry0.dst m ρ c)

/-- The reciprocal degrees were an INPUT of the first region: it leaves them as entered. -/
theorem exit_inv (c : Dev nD) :
    (W2 m ρ c (Proc.devRef .tc main_v11) : S50000x1.Idx → EReal) = invCol (m ((c : Thread nD τ).loc main_arg1)) :=
  (W2_arr m ρ c 1).trans (((dat0 (V1 m ρ) c).arrAt_in 1 rfl _).trans ((A_eq0 (V1 m ρ) c 1).trans (Entry0.inv m ρ c)))

set_option maxHeartbeats 8000000 in
/-- Argument 5 is as launched. -/
theorem exit_arg5 (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results <;> rfl)

set_option maxHeartbeats 8000000 in
/-- Argument 6 is as launched. -/
theorem exit_arg6 (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results <;> rfl)

set_option maxHeartbeats 8000000 in
/-- Argument 7 is as launched. -/
theorem exit_arg7 (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results <;> rfl)

/-! ## The second region's entry arrays -/

set_option maxHeartbeats 8000000 in
/-- The aggregated hidden features are the reference's second aggregate. -/
theorem agg (c : Dev nD) :
    (V3 m ρ c main_v36 : S50000x128.Idx → EReal) = val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W2 m ρ c) (Proc.devRef .tc main_v36) = _
  after_results
  rw [exit_hidden, exit_src, exit_dst]
  rfl

set_option maxHeartbeats 8000000 in
/-- The reciprocal column is the first region's. -/
theorem inv (c : Dev nD) :
    (V3 m ρ c main_v11 : S50000x1.Idx → EReal) = invCol (m ((c : Thread nD τ).loc main_arg1)) := by
  show StableHlo.after hostOps1 (W2 m ρ c) (Proc.devRef .tc main_v11) = _
  after_results
  exact exit_inv m ρ c

set_option maxHeartbeats 8000000 in
/-- The node features of the second layer are the hidden features. -/
theorem feat (c : Dev nD) :
    (V3 m ρ c main_v26 : S50000x128.Idx → EReal) = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W2 m ρ c) (Proc.devRef .tc main_v26) = _
  after_results
  exact exit_hidden m ρ c

set_option maxHeartbeats 8000000 in
/-- The second layer's stacked weights. -/
theorem wcat (c : Dev nD) :
    (V3 m ρ c main_v40 : S256x128.Idx → EReal)
      = concatenate S256x128 0 [⟨S128x128, val_main_v49 (F := Ideal) (m ((c : Thread nD τ).loc main_arg5))⟩, ⟨S128x128, val_main_v54 (F := Ideal) (m ((c : Thread nD τ).loc main_arg7))⟩]
          concatenates_S128x128_S128x128_S256x128_d0 := by
  show StableHlo.after hostOps1 (W2 m ρ c) (Proc.devRef .tc main_v40) = _
  after_results
  rw [exit_arg5, exit_arg7]
  rfl

set_option maxHeartbeats 8000000 in
/-- The second layer's bias as one row. -/
theorem brow (c : Dev nD) :
    (V3 m ρ c main_v37 : S1x128.Idx → EReal) = shapeCast S1x128 (m ((c : Thread nD τ).loc main_arg6)) shapeCasts_S128_S1x128 := by
  show StableHlo.after hostOps1 (W2 m ρ c) (Proc.devRef .tc main_v37) = _
  after_results
  rw [exit_arg6]
  rfl

end Cert.KernelIdeal.Entry1

end
-- ==== Proof.Layer1.lean ====
/-
  THE SECOND REGION COMPUTES THE REFERENCE'S RESULT.

  As for the first region: the output array is the fused layer of the entry arrays (Blocks1), the entry arrays are the
  reference's second aggregate, one over the same clamped in-degree, the hidden features, and the second layer's
  weights and bias (HostEntry1); the fused layer is the reference's arrangement, which is the reference's second layer
  element by element (RefLayers). There is no clamp after the last layer.
-/
import proofs.«110145_j18468359373225_2_alg».proof.Proof.Blocks1
import proofs.«110145_j18468359373225_2_alg».proof.Proof.HostEntry1

set_option maxRecDepth 16384

noncomputable section

namespace Cert.KernelIdeal.Layer1

open Cert.KernelIdeal Cert.KernelIdeal.Gen Idealize.ShloMosaic Idealize.ShloMosaic.TcCoe Idealize.ShloMosaic.ValueIdx Idealize.SL.Sem
open Cert.ReferenceIdeal.Read Cert.ReferenceIdeal.RefValue Cert.Sage

variable (m : (ℓ : Loc nD τ sig) → Buf (Elt Ideal) ℓ) (ρ : Dev nD → PrngReg)

/-- Region 1's output array after the region is the reference's result of the launch contents. -/
theorem out (c : Dev nD) :
    (dat1 (V3 m ρ) c).arrAt 5 cfg1.N
      = val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [Blocks1.final]
  funext i
  obtain ⟨r, q, rfl⟩ : ∃ (r : Fin 50000) (q : Fin 128), i = ix2 r q := ⟨i 0, i 1, eq_ix2 i⟩
  rw [layer1_apply]
  unfold Blocks1.G
  dsimp only [Blocks1.aggA, Blocks1.invA, Blocks1.xA, Blocks1.wA, Blocks1.bA]
  rw [Entry1.agg, Entry1.inv, Entry1.feat, Entry1.wcat, Entry1.brow]
  exact fusedAt_eq_layerAt _ _ _ (val_main_v46 (F := Ideal) (m ((c : Thread nD τ).loc main_arg1))) _ _ (m ((c : Thread nD τ).loc main_arg5)) (m ((c : Thread nD τ).loc main_arg7)) (m ((c : Thread nD τ).loc main_arg6)) onePat_eq
    (fun r => (invCol_apply (m ((c : Thread nD τ).loc main_arg1)) r).trans (by rw [deg1_eq]))
    (fun r => by rw [deg1_eq]; exact deg_pos (m ((c : Thread nD τ).loc main_arg1)) r)
    (fun k q => (stack_lo _ _ _ k q).trans ((val_main_v49_apply (m ((c : Thread nD τ).loc main_arg5)) (ix2 k q)).trans (congrArg _ (tidx49 k q))))
    (fun k q => (stack_hi _ _ _ k q).trans ((val_main_v54_apply (m ((c : Thread nD τ).loc main_arg7)) (ix2 k q)).trans (congrArg _ (tidx54 k q))))
    (fun q => shapeCast_a_1a_apply (m ((c : Thread nD τ).loc main_arg6)) shapeCasts_S128_S1x128 (0 : Fin 1) q) r q

end Cert.KernelIdeal.Layer1

end
-- ==== Proof.lean ====
/-
  A two-layer mean-aggregating graph network over 50000 nodes and 800000 edges, 128 features wide: the kernel against
  its reference, on the extended reals.

  Both programs gather the source nodes' features along the edges and scatter-add them at the destination nodes, and
  count each node's incoming edges by the same scatter of ones, clamped below at one; these host operations are the same
  in the two programs. They differ in how a layer combines the aggregate `agg`, the node's own features `x`, the two
  weight matrices and the bias:

    reference:  (∑ₖ (agg[r,k] / deg[r]) · Wl[q,k] + b[q]) + ∑ₖ x[r,k] · Wr[q,k]
    kernel:     ∑_{k<256} [agg · (1/deg) | x][r,k] · [Wlᵀ ; Wrᵀ][k,q] + b[q]       (in blocks of 5000 nodes)

  and the first layer is clamped below at zero in both. The degree is a positive real, so multiplying by its
  reciprocal is dividing by it on every extended real; a 256-term sum is the sum of its halves; addition is commutative
  and associative. No finiteness of the inputs is used. The first region's output array is therefore the reference's
  hidden features, the second region — entered with their aggregate — leaves the reference's result.

  The three frames: the two kernel programs' are their generated frame certificates; the reference's is its generated
  run with the result dropped. No operation of the kernel is rewritten by the idealization, so there is nothing to
  preserve.
-/
import proofs.«110145_j18468359373225_2_alg».proof.Defs
import proofs.«110145_j18468359373225_2_alg».proof.Proof.Gen.Kernel
import proofs.«110145_j18468359373225_2_alg».proof.Proof.Gen.Kernel.Frame
import proofs.«110145_j18468359373225_2_alg».proof.Proof.Gen.KernelIdeal
import proofs.«110145_j18468359373225_2_alg».proof.Proof.Gen.KernelIdeal.Frame
import proofs.«110145_j18468359373225_2_alg».proof.Proof.Gen.ReferenceIdeal
import proofs.«110145_j18468359373225_2_alg».proof.Proof.Gen.ReferenceIdeal.Run
import proofs.«110145_j18468359373225_2_alg».proof.Proof.Gen.ReferenceIdeal.Read
import proofs.«110145_j18468359373225_2_alg».proof.Proof.Gen.Pre_finite_inputs
import proofs.«110145_j18468359373225_2_alg».proof.Proof.KernelRun
import proofs.«110145_j18468359373225_2_alg».proof.Proof.Layer1
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both programs run to the same result: the reference's run ends at its
    composed term of the arguments; the kernel's run ends with the result buffer at the second region's output array,
    which is that term of the same arguments. -/
theorem algebraic : Cert.algebraic_KernelIdeal_ReferenceIdeal := by
  intro m ρ m' ρ' _ hagree
  refine ⟨fun c => Cert.ReferenceIdeal.Value.res_main_v56 (F := Ideal) m' c, ?_,
    Cert.ReferenceIdeal.Value.run (F := Ideal) m' ρ'⟩
  refine (θ_run Cert.KernelIdeal.defs _ _).mono (fun r h c => ⟨(h c).1.trans ?_, (h c).2⟩)
    (Cert.KernelIdeal.RunAll.run (F := Ideal) m ρ)
  obtain ⟨e0, e1, e2, e3, e4, e5, e6, e7⟩ := hagree c
  rw [Cert.KernelIdeal.RunAll.result_eq, Cert.KernelIdeal.Layer1.out]
  show _ = Cert.ReferenceIdeal.Value.res_main_v56 (F := Ideal) m' c
  rw [Cert.ReferenceIdeal.Read.val_main_v56_eq, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
